-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v75)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000x3x128 : Shape := ⟨3, ![100000, 3, 128]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x3x128 : S_.BroadcastsInDim S100000x3x128 (![] : Fin 0 → Fin S100000x3x128.rank)
  reducesTo_S100000x3x128_S_d0_1_2 : S100000x3x128.ReducesTo [0, 1, 2] S_

variable [Facts]

def fn {F : FTy → Type} [FloatOps F] (main_arg0 : FVec F S100000x3 .f32) (main_arg1 : IVec S2x1600000 32) (main_arg2 : FVec F S100000x3x128 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x3x128 .f32 := Host.absf main_arg2
  let main_cst_0 : FVec F S_ .f32 := constant S_ .f32 0x7F800000#32
  let main_v5 : FVec F S100000x3x128 .f32 := broadcastInDim S100000x3x128 ![] bcast_S_S100000x3x128 main_cst_0
  let main_v6 : IVec S100000x3x128 1 := cmpf .olt main_v4 main_v5
  let main_c_1 : IVec S_ 1 := constantI S_ 1 1#1
  let main_v7 : IVec S_ 1 := (fun x v => Host.reduce IntOp.andi x v reducesTo_S100000x3x128_S_d0_1_2 h_S_) main_v6 main_c_1
  let main_v8 : IVec S_ 1 := andi main_v3 main_v7
  main_v8
-- ==== Kernel.lean ====
abbrev S100000x3 : Shape := ⟨2, ![100000, 3]⟩
abbrev S2x1600000 : Shape := ⟨2, ![2, 1600000]⟩
abbrev S100000x3x128 : Shape := ⟨3, ![100000, 3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S100000 : Shape := ⟨1, ![100000]⟩
abbrev S100000x1 : Shape := ⟨2, ![100000, 1]⟩
abbrev S100000x128 : Shape := ⟨2, ![100000, 128]⟩
abbrev S10000x1 : Shape := ⟨2, ![10000, 1]⟩
abbrev S10000x128 : Shape := ⟨2, ![10000, 128]⟩
abbrev S1600000x128 : Shape := ⟨2, ![1600000, 128]⟩
abbrev S20000x1 : Shape := ⟨2, ![20000, 1]⟩
abbrev S20000x128 : Shape := ⟨2, ![20000, 128]⟩

abbrev nBuf : Space → Nat
  | .hbm => 101
  | .vmem => 8
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000x3x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x3, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x3, .f32⟩
  | .hbm, ⟨25, _⟩ => ⟨S1600000x3, .f32⟩
  | .hbm, ⟨26, _⟩ => ⟨S1600000x3, .f32⟩
  | .hbm, ⟨27, _⟩ => ⟨S_, .f32⟩
  | .hbm, ⟨28, _⟩ => ⟨S1600000, .f32⟩
  | .hbm, ⟨29, _⟩ => ⟨S1600000x1, .f32⟩
  | .hbm, ⟨30, _⟩ => ⟨S1600000x1, .f32⟩
  | .hbm, ⟨31, _⟩ => ⟨S_, .f32⟩
  | .hbm, ⟨32, _⟩ => ⟨S1600000x1, .f32⟩
  | .hbm, ⟨33, _⟩ => ⟨S1600000x1, .f32⟩
  | .hbm, ⟨34, _⟩ => ⟨S1600000x3, .f32⟩
  | .hbm, ⟨35, _⟩ => ⟨S1600000x3, .f32⟩
  | .hbm, ⟨36, _⟩ => ⟨S_, .f32⟩
  | .hbm, ⟨37, _⟩ => ⟨S100000x3, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S100000x3, .f32⟩
  | .hbm, ⟨47, _⟩ => ⟨S1600000x3, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S100000x3, .f32⟩
  | .hbm, ⟨57, _⟩ => ⟨S100000x3, .f32⟩
  | .hbm, ⟨58, _⟩ => ⟨S_, .f32⟩
  | .hbm, ⟨59, _⟩ => ⟨S100000, .f32⟩
  | .hbm, ⟨60, _⟩ => ⟨S100000x1, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x3, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x3, .f32⟩
  | .hbm, ⟨79, _⟩ => ⟨S1600000x3, .f32⟩
  | .hbm, ⟨80, _⟩ => ⟨S_, .f32⟩
  | .hbm, ⟨81, _⟩ => ⟨S1600000, .f32⟩
  | .hbm, ⟨82, _⟩ => ⟨S1600000x1, .f32⟩
  | .hbm, ⟨83, _⟩ => ⟨S1600000x3, .f32⟩
  | .hbm, ⟨84, _⟩ => ⟨S1600000x3, .f32⟩
  | .hbm, ⟨85, _⟩ => ⟨S_, .f32⟩
  | .hbm, ⟨86, _⟩ => ⟨S1600000, .f32⟩
  | .hbm, ⟨87, _⟩ => ⟨S1600000x1, .f32⟩
  | .hbm, ⟨88, _⟩ => ⟨S1600000x3, .f32⟩
  | .hbm, ⟨89, _⟩ => ⟨S1600000x3, .f32⟩
  | .hbm, ⟨90, _⟩ => ⟨S1600000x3, .f32⟩
  | .hbm, ⟨91, _⟩ => ⟨S1600000x3, .f32⟩
  | .hbm, ⟨92, _⟩ => ⟨S1600000x3, .f32⟩
  | .hbm, ⟨93, _⟩ => ⟨S1600000x3, .f32⟩
  | .hbm, ⟨94, _⟩ => ⟨S1600000x3, .f32⟩
  | .hbm, ⟨95, _⟩ => ⟨S1600000x3, .f32⟩
  | .hbm, ⟨96, _⟩ => ⟨S_, .f32⟩
  | .hbm, ⟨97, _⟩ => ⟨S1600000, .f32⟩
  | .hbm, ⟨98, _⟩ => ⟨S1600000x1, .f32⟩
  | .hbm, ⟨99, _⟩ => ⟨S100000x128, .f32⟩
  | .hbm, ⟨100, _⟩ => ⟨S1600000x128, .f32⟩
  | .local _ .vmem, ⟨0, _⟩ => ⟨S10000x1, .f32⟩
  | .local _ .vmem, ⟨1, _⟩ => ⟨S10000x1, .f32⟩
  | .local _ .vmem, ⟨2, _⟩ => ⟨S10000x128, .f32⟩
  | .local _ .vmem, ⟨3, _⟩ => ⟨S10000x128, .f32⟩
  | .local _ .vmem, ⟨4, _⟩ => ⟨S20000x1, .f32⟩
  | .local _ .vmem, ⟨5, _⟩ => ⟨S20000x1, .f32⟩
  | .local _ .vmem, ⟨6, _⟩ => ⟨S20000x128, .f32⟩
  | .local _ .vmem, ⟨7, _⟩ => ⟨S20000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_11 : Ref sig .tc := ⟨.hbm, 70, rfl⟩
abbrev main_v50 : Ref sig .tc := ⟨.hbm, 71, rfl⟩
abbrev main_v51 : Ref sig .tc := ⟨.hbm, 72, rfl⟩
abbrev main_c_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_15 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  bcast_S_S1600000x1 : S_.BroadcastsInDim S1600000x1 (![] : Fin 0 → Fin S1600000x1.rank)
  bcast_S1600000x1_S1600000x3_0_1 : S1600000x1.BroadcastsInDim S1600000x3 (![0, 1] : Fin 2 → Fin S1600000x3.rank)
  bcast_S_S100000x3 : S_.BroadcastsInDim S100000x3 (![] : Fin 0 → Fin S100000x3.rank)
  reducesTo_S100000x3_S100000_d1 : S100000x3.ReducesTo [1] S100000
  bcast_S100000_S100000x1_0 : S100000.BroadcastsInDim S100000x1 (![0] : Fin 1 → Fin S100000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S10000x128_S10000x128_0_0 : ∀ a, (![0, 0] : Fin 2 → Nat) a + S10000x128.size a ≤ S10000x128.size a
  h_S10000x128 : 0 < S10000x128.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x128 : S20000x1.Broadcasts S20000x128
  inb_S20000x128_S20000x128_0_0 : ∀ a, (![0, 0] : Fin 2 → Nat) a + S20000x128.size a ≤ S20000x128.size a
  h_S20000x128 : 0 < S20000x128.numel
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x1.size a ≤ S1600000x1.size a
  hwx1_0 : ∀ i : grid1.Coords, EltTy.bits .f32 = 32 ∨ (Rect.block (s := S1600000x1) S20000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x128.size a ≤ S1600000x128.size a
  hwx1_1 : ∀ i : grid1.Coords, EltTy.bits .f32 = 32 ∨ (Rect.block (s := S1600000x128) S20000x128.size (cc1_transform_1 i) (hinb1_1 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf

abbrev win0_0 : Pipeline.Window sig grid0 :=
  Pipeline.Window.ofSpec (Memref.whole main_v42) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S10000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v73) S20000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S20000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000x3x128 : Shape := ⟨3, ![100000, 3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S100000 : Shape := ⟨1, ![100000]⟩
abbrev S100000x1 : Shape := ⟨2, ![100000, 1]⟩
abbrev S100000x128 : Shape := ⟨2, ![100000, 128]⟩
abbrev S1600000x128 : Shape := ⟨2, ![1600000, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000x3x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x3, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x3, .f32⟩
  | .hbm, ⟨25, _⟩ => ⟨S1600000x3, .f32⟩
  | .hbm, ⟨26, _⟩ => ⟨S1600000x3, .f32⟩
  | .hbm, ⟨27, _⟩ => ⟨S_, .f32⟩
  | .hbm, ⟨28, _⟩ => ⟨S1600000, .f32⟩
  | .hbm, ⟨29, _⟩ => ⟨S1600000x1, .f32⟩
  | .hbm, ⟨30, _⟩ => ⟨S1600000x1, .f32⟩
  | .hbm, ⟨31, _⟩ => ⟨S_, .f32⟩
  | .hbm, ⟨32, _⟩ => ⟨S1600000x1, .f32⟩
  | .hbm, ⟨33, _⟩ => ⟨S1600000x1, .f32⟩
  | .hbm, ⟨34, _⟩ => ⟨S1600000x3, .f32⟩
  | .hbm, ⟨35, _⟩ => ⟨S1600000x3, .f32⟩
  | .hbm, ⟨36, _⟩ => ⟨S_, .f32⟩
  | .hbm, ⟨37, _⟩ => ⟨S100000x3, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S100000x3, .f32⟩
  | .hbm, ⟨47, _⟩ => ⟨S1600000x3, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S100000x3, .f32⟩
  | .hbm, ⟨57, _⟩ => ⟨S100000x3, .f32⟩
  | .hbm, ⟨58, _⟩ => ⟨S_, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x3, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x3, .f32⟩
  | .hbm, ⟨80, _⟩ => ⟨S1600000x3, .f32⟩
  | .hbm, ⟨81, _⟩ => ⟨S_, .f32⟩
  | .hbm, ⟨82, _⟩ => ⟨S1600000, .f32⟩
  | .hbm, ⟨83, _⟩ => ⟨S1600000x1, .f32⟩
  | .hbm, ⟨84, _⟩ => ⟨S1600000x3, .f32⟩
  | .hbm, ⟨85, _⟩ => ⟨S1600000x3, .f32⟩
  | .hbm, ⟨86, _⟩ => ⟨S_, .f32⟩
  | .hbm, ⟨87, _⟩ => ⟨S1600000, .f32⟩
  | .hbm, ⟨88, _⟩ => ⟨S1600000x1, .f32⟩
  | .hbm, ⟨89, _⟩ => ⟨S1600000x3, .f32⟩
  | .hbm, ⟨90, _⟩ => ⟨S1600000x3, .f32⟩
  | .hbm, ⟨91, _⟩ => ⟨S1600000x3, .f32⟩
  | .hbm, ⟨92, _⟩ => ⟨S1600000x3, .f32⟩
  | .hbm, ⟨93, _⟩ => ⟨S1600000x3, .f32⟩
  | .hbm, ⟨94, _⟩ => ⟨S1600000x3, .f32⟩
  | .hbm, ⟨95, _⟩ => ⟨S1600000x3, .f32⟩
  | .hbm, ⟨96, _⟩ => ⟨S1600000x3, .f32⟩
  | .hbm, ⟨97, _⟩ => ⟨S_, .f32⟩
  | .hbm, ⟨98, _⟩ => ⟨S1600000, .f32⟩
  | .hbm, ⟨99, _⟩ => ⟨S1600000x1, .f32⟩
  | .hbm, ⟨100, _⟩ => ⟨S1600000x128, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  bcast_S_S1600000x1 : S_.BroadcastsInDim S1600000x1 (![] : Fin 0 → Fin S1600000x1.rank)
  bcast_S1600000x1_S1600000x3_0_1 : S1600000x1.BroadcastsInDim S1600000x3 (![0, 1] : Fin 2 → Fin S1600000x3.rank)
  bcast_S_S100000x3 : S_.BroadcastsInDim S100000x3 (![] : Fin 0 → Fin S100000x3.rank)
  reducesTo_S100000x3_S100000_d1 : S100000x3.ReducesTo [1] S100000
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1600000x1_S1600000x128_0_1 : S1600000x1.BroadcastsInDim S1600000x128 (![0, 1] : Fin 2 → Fin S1600000x128.rank)
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf

class Facts : Prop extends Facts₀ where

variable [Facts]
-- ==== Proof.KernelRun.lean ====
/-
  THE IDEALIZED KERNEL'S RUN, WITH ITS THREE RESULTS READ. The program is one long stretch of host operations
  (the per-edge and per-node geometry, three stretches in the printed text because the Euclidean norm is an outlined
  function) followed by two launches of one lane-broadcast kernel. Every weakly fair execution terminates without a fault,
  and at the end every buffer the TensorCore's thread holds has the contents of the last boundary of that walk — the
  fold of the host stretches and of each launch's write-backs from the launch memory. Read at the three result buffers
  (the two launches' outputs and the node directions the host computes) and at the three arguments, that is the
  statement below: the same launch theorem and the same segments as the frame of this program, its last read widened
  from the arguments to the results.
-/
import proofs.«155269_j25314537242666_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with each result buffer at the last boundary's
    contents `W5` and the arguments as launched. -/
theorem run_results : θ_run defs (onTc (τ := τ) (main (F := F))) ⟨m, fun _ => 0, ρ⟩ (fun r => ∀ c : Dev nD,
      r.2.mem ((c.tc : Thread nD τ).loc main_v74) = W5 m ρ c (Proc.devRef .tc main_v74)
      ∧ r.2.mem ((c.tc : Thread nD τ).loc main_v75) = W5 m ρ c (Proc.devRef .tc main_v75)
      ∧ r.2.mem ((c.tc : Thread nD τ).loc main_v39) = W5 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v74 (by decide)),
       h c _ (mem_uc main_v75 (by decide)),
       h c _ (mem_uc main_v39 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Results

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibAcross.lean ====
/-
  A COLUMN REPEATED ACROSS THE LANES (general: any extents, any element type, no program needed).

  For a column `x` of shape `[N, 1]`, `across x` is the `[N, C]` array whose entry `(n, l)` is `x (n, 0)`: every lane
  of row `n` holds the column's entry of that row. The two ways a program spells this array are both it: the vector
  unit's `vector.broadcast` from `[N, 1]` to `[N, C]`, and StableHLO's `broadcast_in_dim` along axes (0, 1)
  (for `N ≠ 1`; a unit axis of the operand is read at coordinate zero).
-/
import proofs.«155269_j25314537242666_2_alg».proof.Proof.LibBroadcast
import proofs.«155269_j25314537242666_2_alg».proof.Proof.LibColumn

noncomputable section

namespace Cert.Across

open Idealize.ShloMosaic Idealize.ShloMosaic.ValueIdx

variable {α : Type} {N C : ℕ}

/-- The column `x` repeated across `C` lanes: entry `(n, l)` is `x (n, 0)`. -/
def across (x : (⟨2, ![N, 1]⟩ : Shape).Idx → α) : (⟨2, ![N, C]⟩ : Shape).Idx → α :=
  fun i => x (ix2 (i 0 : Fin N) (0 : Fin 1))

/-- Read at coordinates. -/
theorem across_apply (x : (⟨2, ![N, 1]⟩ : Shape).Idx → α) (n : Fin N) (l : Fin C) :
    across (C := C) x (ix2 n l) = x (ix2 n (0 : Fin 1)) := rfl

/-- The vector unit's broadcast of a column is the column repeated across the lanes. -/
theorem broadcastTo_eq_across (x : (⟨2, ![N, 1]⟩ : Shape).Idx → α)
    (h : (⟨2, ![N, 1]⟩ : Shape).Broadcasts ⟨2, ![N, C]⟩) :
    broadcastTo ⟨2, ![N, C]⟩ x h = across x := by
  funext i
  obtain ⟨n, l, rfl⟩ : ∃ (n : Fin N) (l : Fin C), i = ix2 n l := ⟨i 0, i 1, eq_ix2 i⟩
  exact Cert.Column.broadcastTo_a1_ab_apply x h n l

/-- StableHLO's broadcast of a column along axes (0, 1) is the column repeated across the lanes. -/
theorem broadcastInDim_eq_across (hN : N ≠ 1) (x : (⟨2, ![N, 1]⟩ : Shape).Idx → α)
    (h : (⟨2, ![N, 1]⟩ : Shape).BroadcastsInDim ⟨2, ![N, C]⟩ ![0, 1]) :
    broadcastInDim ⟨2, ![N, C]⟩ ![0, 1] h x = across x := by
  funext i
  obtain ⟨n, l, rfl⟩ : ∃ (n : Fin N) (l : Fin C), i = ix2 n l := ⟨i 0, i 1, eq_ix2 i⟩
  exact Cert.Bcast.rows_of_col_apply hN x h n l

end Cert.Across

end
-- ==== Proof.Lanes.lean ====
/-
  WHAT EACH LAUNCH LEAVES IN ITS OUTPUT ARRAY. The kernel body loads its input block, a column of `B` rows, and stores
  that column repeated across the 128 lanes. The grid walks the rows in consecutive blocks of `B`: point `t` reads rows
  `t·B … t·B + B − 1` of the input column and writes the same rows of the output. So what point `t` writes back is block
  `t` of ONE array, the whole input column repeated across the lanes; the blocks tile the output (row `r` lies in block
  `r / B`); hence the output array ends as that array. Stated for any contents `V` of the buffers at the launch's entry
  and any float instance; first launch: 100000 rows in 10 blocks of 10000, second: 1600000 rows in 80 blocks of 20000.
-/
import proofs.«155269_j25314537242666_2_alg».proof.Proof.Gen.KernelIdeal.Frame
import proofs.«155269_j25314537242666_2_alg».proof.Proof.LibAcross
import Idealize.ShloMosaic.Lib.Pipeline.Value
import Idealize.ShloMosaic.Lib.ValueIdx

set_option maxRecDepth 16384

noncomputable section

namespace Cert.KernelIdeal.Lanes

open Cert.KernelIdeal Cert.KernelIdeal.Gen Cert.Across
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- A store or load at offset (0, 0). -/
theorem hz : (![0, 0] : Fin 2 → Nat) = fun _ => 0 := funext fun a => by fin_cases a <;> rfl

/-! ## Launch 0: 100000 rows in 10 blocks of 10000 -/

/-- The body's stored value: its two shape casts change nothing, and the vector broadcast repeats the loaded column
    across the lanes. -/
theorem pay0_eq (x0 : Vec F S10000x1 .f32) :
    k0_pay1 x0 = across (α := Elt F .f32) (N := 10000) (C := 128) x0 := by
  unfold k0_pay1
  show broadcastTo S10000x128 (shapeCast S10000x1 (shapeCast S10000x1 x0 shapeCasts_S10000x1_S10000x1) shapeCasts_S10000x1_S10000x1) broadcasts_S10000x1_S10000x128 = _
  rw [shapeCast_self, shapeCast_self]
  exact broadcastTo_eq_across _ _

/-- The index maps over the grid: at point `t` both windows sit at block row `t`, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the input column repeated across the lanes. -/
theorem flushed0_eq (c : Dev nD) (t : Fin cfg0.N) :
    (dat0 V c).flushed 1 t = ((cfg0.win 1).blk t).view.read (Elt F)
      (across (α := Elt F .f32) (N := 100000) (C := 128) (V c main_v42)) := by
  show (cfg0.win 1).cut (grid0.coords t) ((dat0 V c).after 1 t) = _
  rw [after0_1]
  unfold out0_1
  rw [View.canon_unit_zero hz]
  simp only [View.ld_unit_zero (S := S10000x1) hz]
  rw [pay0_eq]
  obtain ⟨e0, e1, e2, e3⟩ := idx_facts0 t
  funext j
  show V c main_v42 (((cfg0.win 0).blk t).view.emb (ix2 (j 0 : Fin 10000) (0 : Fin 1)))
    = V c main_v42 (ix2 ((((cfg0.win 1).blk t).view.emb j) 0 : Fin 100000) (0 : Fin 1))
  refine congrArg _ ?_
  funext a; apply Fin.ext
  match a with
  | ⟨0, _⟩ =>
    show win0_0.index t (0 : Fin 2) * 10000 + 1 * (j 0).val = win0_1.index t (0 : Fin 2) * 10000 + 1 * (j 0).val
    omega
  | ⟨1, _⟩ =>
    show win0_0.index t (1 : Fin 2) * 1 + 1 * 0 = 0
    omega

/-- An index of the output array is in point `t`'s block iff each coordinate is in the block's range on its axis. -/
theorem mem_blk0 (t : Fin cfg0.N) (i : S100000x128.Idx) :
    i ∈ ((cfg0.win 1).blk t).view.set ↔ ∀ a : Fin 2, win0_1.index t a * S10000x128.size a ≤ (i a).val
      ∧ (i a).val < win0_1.index t a * S10000x128.size a + S10000x128.size a := by
  show i ∈ ((View.whole main_v74).slice (win0_1.rect t)).set ↔ _
  rw [View.set_slice_whole, Rect.mem_set_unit]
  exact Iff.rfl

/-- The blocks tile the output: row `r` lies in the block of point `r / 10000`, and every point writes back. -/
theorem cover0 (i : S100000x128.Idx) :
    ∃ t : Fin cfg0.N, (cfg0.win 1).flush t = true ∧ i ∈ ((cfg0.win 1).blk t).view.set := by
  have hi0 : (i 0).val < 100000 := (i 0).isLt
  have hi1 : (i 1).val < 128 := (i 1).isLt
  have hN : (i 0).val / 10000 < cfg0.N := by show _ < grid0.N; rw [N_0]; omega
  obtain ⟨e0, e1, e2, e3⟩ := idx_facts0 ⟨(i 0).val / 10000, hN⟩
  refine ⟨⟨(i 0).val / 10000, hN⟩, flush0_1 _, ?_⟩
  rw [mem_blk0]
  intro a
  match a with
  | ⟨0, _⟩ =>
    show win0_1.index ⟨(i 0).val / 10000, hN⟩ (0 : Fin 2) * 10000 ≤ (i 0).val
      ∧ (i 0).val < win0_1.index ⟨(i 0).val / 10000, hN⟩ (0 : Fin 2) * 10000 + 10000
    rw [e2]
    show (i 0).val / 10000 * 10000 ≤ (i 0).val ∧ (i 0).val < (i 0).val / 10000 * 10000 + 10000
    omega
  | ⟨1, _⟩ =>
    show win0_1.index ⟨(i 0).val / 10000, hN⟩ (1 : Fin 2) * 128 ≤ (i 1).val
      ∧ (i 1).val < win0_1.index ⟨(i 0).val / 10000, hN⟩ (1 : Fin 2) * 128 + 128
    rw [e3]
    omega

/-- THE OUTPUT ARRAY after launch 0: the input column repeated across the 128 lanes. -/
theorem final0 (c : Dev nD) :
    (dat0 V c).arrAt 1 cfg0.N = across (α := Elt F .f32) (N := 100000) (C := 128) (V c main_v42) :=
  (dat0 V c).arrAt_eq_of_cover 1 _ (fun t _ => flushed0_eq V c t) (cover0)

/-! ## Launch 1: 1600000 rows in 80 blocks of 20000 -/

/-- The body's stored value: its two shape casts change nothing, and the vector broadcast repeats the loaded column
    across the lanes. -/
theorem pay1_eq (x0 : Vec F S20000x1 .f32) :
    k1_pay1 x0 = across (α := Elt F .f32) (N := 20000) (C := 128) x0 := by
  unfold k1_pay1
  show broadcastTo S20000x128 (shapeCast S20000x1 (shapeCast S20000x1 x0 shapeCasts_S20000x1_S20000x1) shapeCasts_S20000x1_S20000x1) broadcasts_S20000x1_S20000x128 = _
  rw [shapeCast_self, shapeCast_self]
  exact broadcastTo_eq_across _ _

/-- The index maps over the grid: at point `t` both windows sit at block row `t`, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the input column repeated across the lanes. -/
theorem flushed1_eq (c : Dev nD) (t : Fin cfg1.N) :
    (dat1 V c).flushed 1 t = ((cfg1.win 1).blk t).view.read (Elt F)
      (across (α := Elt F .f32) (N := 1600000) (C := 128) (V c main_v73)) := by
  show (cfg1.win 1).cut (grid1.coords t) ((dat1 V c).after 1 t) = _
  rw [after1_1]
  unfold out1_1
  rw [View.canon_unit_zero hz]
  simp only [View.ld_unit_zero (S := S20000x1) hz]
  rw [pay1_eq]
  obtain ⟨e0, e1, e2, e3⟩ := idx_facts1 t
  funext j
  show V c main_v73 (((cfg1.win 0).blk t).view.emb (ix2 (j 0 : Fin 20000) (0 : Fin 1)))
    = V c main_v73 (ix2 ((((cfg1.win 1).blk t).view.emb j) 0 : Fin 1600000) (0 : Fin 1))
  refine congrArg _ ?_
  funext a; apply Fin.ext
  match a with
  | ⟨0, _⟩ =>
    show win1_0.index t (0 : Fin 2) * 20000 + 1 * (j 0).val = win1_1.index t (0 : Fin 2) * 20000 + 1 * (j 0).val
    omega
  | ⟨1, _⟩ =>
    show win1_0.index t (1 : Fin 2) * 1 + 1 * 0 = 0
    omega

/-- An index of the output array is in point `t`'s block iff each coordinate is in the block's range on its axis. -/
theorem mem_blk1 (t : Fin cfg1.N) (i : S1600000x128.Idx) :
    i ∈ ((cfg1.win 1).blk t).view.set ↔ ∀ a : Fin 2, win1_1.index t a * S20000x128.size a ≤ (i a).val
      ∧ (i a).val < win1_1.index t a * S20000x128.size a + S20000x128.size a := by
  show i ∈ ((View.whole main_v75).slice (win1_1.rect t)).set ↔ _
  rw [View.set_slice_whole, Rect.mem_set_unit]
  exact Iff.rfl

/-- The blocks tile the output: row `r` lies in the block of point `r / 20000`, and every point writes back. -/
theorem cover1 (i : S1600000x128.Idx) :
    ∃ t : Fin cfg1.N, (cfg1.win 1).flush t = true ∧ i ∈ ((cfg1.win 1).blk t).view.set := by
  have hi0 : (i 0).val < 1600000 := (i 0).isLt
  have hi1 : (i 1).val < 128 := (i 1).isLt
  have hN : (i 0).val / 20000 < cfg1.N := by show _ < grid1.N; rw [N_1]; omega
  obtain ⟨e0, e1, e2, e3⟩ := idx_facts1 ⟨(i 0).val / 20000, hN⟩
  refine ⟨⟨(i 0).val / 20000, hN⟩, flush1_1 _, ?_⟩
  rw [mem_blk1]
  intro a
  match a with
  | ⟨0, _⟩ =>
    show win1_1.index ⟨(i 0).val / 20000, hN⟩ (0 : Fin 2) * 20000 ≤ (i 0).val
      ∧ (i 0).val < win1_1.index ⟨(i 0).val / 20000, hN⟩ (0 : Fin 2) * 20000 + 20000
    rw [e2]
    show (i 0).val / 20000 * 20000 ≤ (i 0).val ∧ (i 0).val < (i 0).val / 20000 * 20000 + 20000
    omega
  | ⟨1, _⟩ =>
    show win1_1.index ⟨(i 0).val / 20000, hN⟩ (1 : Fin 2) * 128 ≤ (i 1).val
      ∧ (i 1).val < win1_1.index ⟨(i 0).val / 20000, hN⟩ (1 : Fin 2) * 128 + 128
    rw [e3]
    omega

/-- THE OUTPUT ARRAY after launch 1: the input column repeated across the 128 lanes. -/
theorem final1 (c : Dev nD) :
    (dat1 V c).arrAt 1 cfg1.N = across (α := Elt F .f32) (N := 1600000) (C := 128) (V c main_v73) :=
  (dat1 V c).arrAt_eq_of_cover 1 _ (fun t _ => flushed1_eq V c t) (cover1)

end Cert.KernelIdeal.Lanes

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.Geometry.lean ====
/-
  THE HOST GEOMETRY, SHARED BY BOTH PROGRAMS. Before its two launches the idealized kernel computes, on the host and
  operation for operation as the reference does, the unit vector of every edge, the node directions (each edge's unit vector
  added at one endpoint and subtracted at the other), the squared length of every node's direction as a column, and the
  per-edge product of the two endpoint directions projected off the edge, again as a column. Nothing of that arithmetic is
  opened here: the three buffers the rest of the program reads — the node directions and the two columns — hold, when the
  first launch is entered, the very stages the reference's own run names, as functions of the two arguments read. Any float
  instance.
-/
import proofs.«155269_j25314537242666_2_alg».proof.Proof.Gen.KernelIdeal.Frame
import proofs.«155269_j25314537242666_2_alg».proof.Proof.Gen.ReferenceIdeal.Read
import proofs.«155269_j25314537242666_2_alg».proof.Proof.LibHostWalk

set_option maxRecDepth 16384

noncomputable section

namespace Cert.KernelIdeal.Geometry

open Cert.KernelIdeal Cert.KernelIdeal.Gen Cert.HostWalk
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The node directions, entering the first launch. -/
theorem node_dirs (c : Dev nD) :
    (W3 m ρ c (Proc.devRef .tc main_v39) : (⟨S100000x3, .f32⟩ : BufTy).Contents (Elt F)) =
      Cert.ReferenceIdeal.Read.val_main_v39 (F := F) (m ((c : Thread nD τ).loc main_arg0)) (m ((c : Thread nD τ).loc main_arg1)) := by
  show StableHlo.after hostOps0_2 (StableHlo.after hostOps0_1 (StableHlo.after hostOps0 (W0 m ρ c))) (Proc.devRef .tc main_v39) = _
  walk_back [hostOps0, hostOps0_1, hostOps0_2]
  rfl

set_option maxHeartbeats 4000000 in
/-- The squared length of every node's direction, as a column, entering the first launch. -/
theorem sq_norm_col (c : Dev nD) :
    (W3 m ρ c (Proc.devRef .tc main_v42) : (⟨S100000x1, .f32⟩ : BufTy).Contents (Elt F)) =
      Cert.ReferenceIdeal.Read.val_main_v42 (F := F) (m ((c : Thread nD τ).loc main_arg0)) (m ((c : Thread nD τ).loc main_arg1)) := by
  show StableHlo.after hostOps0_2 (StableHlo.after hostOps0_1 (StableHlo.after hostOps0 (W0 m ρ c))) (Proc.devRef .tc main_v42) = _
  walk_back [hostOps0, hostOps0_1, hostOps0_2]
  rfl

set_option maxHeartbeats 8000000 in
/-- The per-edge product of the two projected endpoint directions, as a column, entering the first launch. -/
theorem dihedral_col (c : Dev nD) :
    (W3 m ρ c (Proc.devRef .tc main_v73) : (⟨S1600000x1, .f32⟩ : BufTy).Contents (Elt F)) =
      Cert.ReferenceIdeal.Read.val_main_v74 (F := F) (m ((c : Thread nD τ).loc main_arg0)) (m ((c : Thread nD τ).loc main_arg1)) := by
  show StableHlo.after hostOps0_2 (StableHlo.after hostOps0_1 (StableHlo.after hostOps0 (W0 m ρ c))) (Proc.devRef .tc main_v73) = _
  walk_back [hostOps0, hostOps0_1, hostOps0_2]
  rfl

end Cert.KernelIdeal.Geometry

end
-- ==== Proof.KernelValue.lean ====
/-
  THE IDEALIZED KERNEL'S THREE RESULTS AS FUNCTIONS OF ITS ARGUMENTS. At the end of the run each result buffer holds the
  last boundary's contents. The node directions are written by the host before either launch and touched by neither,
  so they are still what the host computed. The first launch's output is left alone by the second launch and holds what
  the first launch's write-backs left: the squared-length column repeated across the 128 lanes. The second launch's
  output holds the per-edge column — which the first launch did not touch — repeated across the lanes. Each column and
  the node directions are the reference's own stages of the two arguments read (the host geometry, shared).
-/
import proofs.«155269_j25314537242666_2_alg».proof.Proof.Lanes
import proofs.«155269_j25314537242666_2_alg».proof.Proof.Geometry

set_option maxRecDepth 16384

noncomputable section

namespace Cert.KernelIdeal.Results

open Cert.KernelIdeal Cert.KernelIdeal.Gen Cert.Across Cert.KernelIdeal.Lanes Cert.KernelIdeal.Geometry
open Idealize.ShloMosaic Idealize.ShloMosaic.TcCoe Idealize.SL.Sem

variable {F : FTy → Type} [FloatOps F]
variable (m : (ℓ : Loc nD τ sig) → Buf (Elt F) ℓ) (ρ : Dev nD → PrngReg)

/-- The first result: every lane of row `n` holds the squared length of node `n`'s direction. -/
theorem angular_out (c : Dev nD) :
    W5 m ρ c (Proc.devRef .tc main_v74) = across (α := Elt F .f32) (N := 100000) (C := 128)
      (Cert.ReferenceIdeal.Read.val_main_v42 (F := F) (m ((c : Thread nD τ).loc main_arg0)) (m ((c : Thread nD τ).loc main_arg1))) :=
  calc W5 m ρ c (Proc.devRef .tc main_v74)
    _ = W4 m ρ c (Proc.devRef .tc main_v74) := W5_of_ne m ρ c main_v74 (by decide)
    _ = (dat0 (V3 m ρ) c).arrAt 1 cfg0.N := W4_arr m ρ c 1
    _ = across (α := Elt F .f32) (N := 100000) (C := 128) (V3 m ρ c main_v42) := final0 (V3 m ρ) c
    _ = _ := congrArg (across (α := Elt F .f32) (N := 100000) (C := 128)) (sq_norm_col m ρ c)

/-- The second result: every lane of row `e` holds edge `e`'s product of the projected endpoint directions. -/
theorem dihedral_out (c : Dev nD) :
    W5 m ρ c (Proc.devRef .tc main_v75) = across (α := Elt F .f32) (N := 1600000) (C := 128)
      (Cert.ReferenceIdeal.Read.val_main_v74 (F := F) (m ((c : Thread nD τ).loc main_arg0)) (m ((c : Thread nD τ).loc main_arg1))) :=
  calc W5 m ρ c (Proc.devRef .tc main_v75)
    _ = (dat1 (V4 m ρ) c).arrAt 1 cfg1.N := W5_arr m ρ c 1
    _ = across (α := Elt F .f32) (N := 1600000) (C := 128) (V4 m ρ c main_v73) := final1 (V4 m ρ) c
    _ = across (α := Elt F .f32) (N := 1600000) (C := 128) (V3 m ρ c main_v73) :=
        congrArg (across (α := Elt F .f32) (N := 1600000) (C := 128)) (W4_of_ne m ρ c main_v73 (by decide))
    _ = _ := congrArg (across (α := Elt F .f32) (N := 1600000) (C := 128)) (dihedral_col m ρ c)

/-- The third result: the node directions as the host computed them. -/
theorem dirs_out (c : Dev nD) :
    W5 m ρ c (Proc.devRef .tc main_v39) =
      Cert.ReferenceIdeal.Read.val_main_v39 (F := F) (m ((c : Thread nD τ).loc main_arg0)) (m ((c : Thread nD τ).loc main_arg1)) :=
  calc W5 m ρ c (Proc.devRef .tc main_v39)
    _ = W4 m ρ c (Proc.devRef .tc main_v39) := W5_of_ne m ρ c main_v39 (by decide)
    _ = W3 m ρ c (Proc.devRef .tc main_v39) := W4_of_ne m ρ c main_v39 (by decide)
    _ = _ := node_dirs m ρ c

end Cert.KernelIdeal.Results

end
-- ==== Proof.lean ====
/-
  The certificate of the lane-broadcast kernel against its jnp reference.

  Both programs compute, on the host and operation for operation alike, the geometry of a graph: the unit vector of every
  edge, the node directions `d` (each edge's unit vector added at its first endpoint and subtracted at its second), the squared
  length `|d n|²` of every node's direction, and for every edge the product of its two endpoint directions after each is
  projected off the edge. The reference then repeats the node column and the edge column across 128 lanes with
  `broadcast_in_dim`; the kernel does the same with two launches of one Pallas kernel whose body loads a block of a
  column and stores it repeated across the lanes, over consecutive row blocks that tile the output. So entry `(n, l)` of
  the first result is the node column's entry `n` on both sides, entry `(e, l)` of the second the edge column's entry `e`,
  and the third result is `d` itself. No arithmetic of the geometry is opened and no law of the extended reals is
  needed: the columns are the same stages of the same arguments, so the precondition is never used.

  The modules: `LibAcross` (a column repeated across lanes, and its two spellings), `Lanes` (what each launch leaves in
  its output array), `Geometry` (the host stretch hands the launches the reference's own stages), `KernelRun` (the
  kernel's run with its results read), `KernelValue` (those results as functions of the arguments); here the
  reference's two broadcasts and the five claims.
-/
import proofs.«155269_j25314537242666_2_alg».proof.Defs
import proofs.«155269_j25314537242666_2_alg».proof.Proof.Gen.Kernel
import proofs.«155269_j25314537242666_2_alg».proof.Proof.Gen.Kernel.Skeleton
import proofs.«155269_j25314537242666_2_alg».proof.Proof.Gen.Kernel.Launch
import proofs.«155269_j25314537242666_2_alg».proof.Proof.Gen.Kernel.Points
import proofs.«155269_j25314537242666_2_alg».proof.Proof.Gen.Kernel.Frame
import proofs.«155269_j25314537242666_2_alg».proof.Proof.Gen.KernelIdeal
import proofs.«155269_j25314537242666_2_alg».proof.Proof.Gen.KernelIdeal.Skeleton
import proofs.«155269_j25314537242666_2_alg».proof.Proof.Gen.KernelIdeal.Launch
import proofs.«155269_j25314537242666_2_alg».proof.Proof.Gen.KernelIdeal.Points
import proofs.«155269_j25314537242666_2_alg».proof.Proof.Gen.KernelIdeal.Frame
import proofs.«155269_j25314537242666_2_alg».proof.Proof.Gen.ReferenceIdeal
import proofs.«155269_j25314537242666_2_alg».proof.Proof.Gen.ReferenceIdeal.Run
import proofs.«155269_j25314537242666_2_alg».proof.Proof.Gen.ReferenceIdeal.Read
import proofs.«155269_j25314537242666_2_alg».proof.Proof.Gen.Pre_finite_inputs
import proofs.«155269_j25314537242666_2_alg».proof.Proof.KernelRun
import proofs.«155269_j25314537242666_2_alg».proof.Proof.KernelValue
import Idealize.ShloMosaic.Adequacy
import Idealize.ShloMosaic.Init

noncomputable section

/-! ## The reference's two lane broadcasts -/

namespace Cert.ReferenceIdeal.Lanes

open Cert.ReferenceIdeal Cert.ReferenceIdeal.Read Cert.Across Idealize.ShloMosaic

variable {F : FTy → Type} [FloatOps F]

/-- The reference's first result is the node column repeated across the lanes. -/
theorem angular (x0 : (⟨S100000x3, .f32⟩ : BufTy).Contents (Elt F)) (x1 : (⟨S2x1600000, .i32⟩ : BufTy).Contents (Elt F)) :
    val_main_v43 (F := F) x0 x1 = across (α := Elt F .f32) (N := 100000) (C := 128) (val_main_v42 (F := F) x0 x1) := by
  unfold val_main_v43
  exact broadcastInDim_eq_across (by decide) _ _

/-- The reference's second result is the edge column repeated across the lanes. -/
theorem dihedral (x0 : (⟨S100000x3, .f32⟩ : BufTy).Contents (Elt F)) (x1 : (⟨S2x1600000, .i32⟩ : BufTy).Contents (Elt F)) :
    val_main_v75 (F := F) x0 x1 = across (α := Elt F .f32) (N := 1600000) (C := 128) (val_main_v74 (F := F) x0 x1) := by
  unfold val_main_v75
  exact broadcastInDim_eq_across (by decide) _ _

end Cert.ReferenceIdeal.Lanes

/-! ## The claims -/

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories agreeing on the arguments both programs end with the node column across the lanes, the edge column
    across the lanes, and the node directions, of the same two arguments. -/
theorem algebraic : Cert.algebraic_KernelIdeal_ReferenceIdeal := by
  intro m ρ m' ρ' _ hagree
  refine ⟨_, _, _, (θ_run Cert.KernelIdeal.defs _ _).mono (fun r h c =>
      ⟨(h c).1.trans (Cert.KernelIdeal.Results.angular_out m ρ c),
       (h c).2.1.trans (Cert.KernelIdeal.Results.dihedral_out m ρ c),
       (h c).2.2.1.trans (Cert.KernelIdeal.Results.dirs_out m ρ c),
       (h c).2.2.2⟩) (Cert.KernelIdeal.Results.run_results (F := Ideal) m ρ), ?_⟩
  refine (θ_run Cert.ReferenceIdeal.defs _ _).mono (fun r h c => ⟨?_, ?_, ?_, (h c).2.2.2⟩)
    (Cert.ReferenceIdeal.Value.run (F := Ideal) m' ρ')
  · rw [(h c).1, Cert.ReferenceIdeal.Read.val_main_v43_eq, (hagree c).1, (hagree c).2.1]
    exact Cert.ReferenceIdeal.Lanes.angular _ _
  · rw [(h c).2.1, Cert.ReferenceIdeal.Read.val_main_v75_eq, (hagree c).1, (hagree c).2.1]
    exact Cert.ReferenceIdeal.Lanes.dihedral _ _
  · rw [(h c).2.2.1, Cert.ReferenceIdeal.Read.val_main_v39_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
